-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  main_v3
-- ==== Kernel.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S1x1 : Shape := ⟨2, ![1, 1]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩

abbrev nBuf : Space → Nat
  | .hbm => 19
  | .vmem => 10
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S16384, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x1, .f32⟩
  | .hbm, ⟨13, _⟩ => ⟨S1x16384, .f32⟩
  | .hbm, ⟨14, _⟩ => ⟨S1x1, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1024x1, .f32⟩
  | .local _ .vmem, ⟨1, _⟩ => ⟨S1024x1, .f32⟩
  | .local _ .vmem, ⟨2, _⟩ => ⟨S1x1024, .f32⟩
  | .local _ .vmem, ⟨3, _⟩ => ⟨S1x1024, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1x1, .f32⟩
  | .local _ .vmem, ⟨9, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  bcast_S_S16384 : S_.BroadcastsInDim S16384 (![] : Fin 0 → Fin S16384.rank)
  shapeCasts_S16384_S16384x1 : S16384.ShapeCasts S16384x1
  shapeCasts_S16384_S1x16384 : S16384.ShapeCasts S1x16384
  inb_S1x1_S1x1_0_0 : ∀ a, (![0, 0] : Fin 2 → Nat) a + S1x1.size a ≤ S1x1.size a
  h_S1x1 : 0 < S1x1.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S16384x1.size a
  hwx0_0 : ∀ i : grid0.Coords, EltTy.bits .f32 = 32 ∨ (Rect.block (s := S16384x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v6) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10_1) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S16384, .f32⟩
  | .hbm, ⟨6, _⟩ => ⟨S_, .i32⟩
  | .hbm, ⟨7, _⟩ => ⟨S16384, .i32⟩
  | .hbm, ⟨8, _⟩ => ⟨S16384, .i1⟩
  | .hbm, ⟨9, _⟩ => ⟨S16384, .f32⟩
  | .hbm, ⟨10, _⟩ => ⟨S16384x1, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S16384x1, .f32⟩
  | .hbm, ⟨16, _⟩ => ⟨S1x16384, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S16384x16384, .f32⟩
  | .hbm, ⟨21, _⟩ => ⟨S16384x16384, .f32⟩
  | .hbm, ⟨22, _⟩ => ⟨S16384x16384, .f32⟩
  | .hbm, ⟨23, _⟩ => ⟨S_, .f32⟩
  | .hbm, ⟨24, _⟩ => ⟨S16384x16384, .f32⟩
  | .hbm, ⟨25, _⟩ => ⟨S16384x16384, .f32⟩
  | .hbm, ⟨26, _⟩ => ⟨S_, .f32⟩
  | .hbm, ⟨27, _⟩ => ⟨S16384x16384, .f32⟩
  | .hbm, ⟨28, _⟩ => ⟨S16384x16384, .f32⟩
  | .hbm, ⟨29, _⟩ => ⟨S16384x16384, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_
  h_S_ : 0 < S_.numel

variable [Facts₀]

class Facts : Prop extends Facts₀ where

variable [Facts]
-- ==== Proof.LibTileSum.lean ====
/-
  Finite sums cut into tiles, running sums over the tiles, sums over a range padded with zeros, and the collapse of
  products with a vanishing factor on the extended reals.

  Over an additive commutative monoid: a sum of `a * b` terms is the sum over `a` tiles of the `b` terms of each
  tile; a running sum `g 0, g 0 + g 1, …` over eight tiles ends at the full sum; a sum whose terms vanish from some
  position on is the sum of the terms before it.  On the extended reals `0 * x = x * 0 = 0` for every `x` (the
  infinities included) and `r - r = 0` for a real `r`, so a product split along `x = x + (x - x)` loses its extra terms.
-/
import Mathlib.Algebra.BigOperators.Fin
import Mathlib.Data.Fintype.BigOperators
import Mathlib.Logic.Equiv.Fin.Basic
import Mathlib.Data.EReal.Inv

namespace Cert.LibTileSum

open scoped BigOperators

section Monoid
variable {M : Type*} [AddCommMonoid M]

/-- Position `q` of tile `j` (tiles of `b` terms, `a` of them) is below `a * b`. -/
theorem tile_lt {a b : ℕ} (j : Fin a) (q : Fin b) : b * j.val + q.val < a * b :=
  calc b * j.val + q.val < b * j.val + b := Nat.add_lt_add_left q.isLt _
    _ = b * (j.val + 1) := (Nat.mul_succ _ _).symm
    _ ≤ b * a := Nat.mul_le_mul_left _ j.isLt
    _ = a * b := Nat.mul_comm _ _

/-- A sum of `a * b` terms is the sum over the `a` tiles of the sums of the `b` terms of each tile. -/
theorem sum_tiles_mul (a b : ℕ) (f : Fin (a * b) → M) :
    ∑ k : Fin (a * b), f k = ∑ j : Fin a, ∑ q : Fin b, f ⟨b * j.val + q.val, tile_lt j q⟩ := by
  rw [← Equiv.sum_comp finProdFinEquiv f, Fintype.sum_prod_type]
  refine Finset.sum_congr rfl fun j _ => Finset.sum_congr rfl fun q _ => ?_
  exact congrArg f (Fin.ext (Nat.add_comm _ _))

/-- 6144 terms as 8 tiles of 768. -/
theorem sum_tiles (f : Fin 6144 → M) :
    ∑ k : Fin 6144, f k = ∑ j : Fin 8, ∑ q : Fin 768, f ⟨768 * j.val + q.val, by omega⟩ :=
  sum_tiles_mul 8 768 f

/-- The running sum over eight tiles: `g 0`, then one more tile's term at each step (nothing past the eighth). -/
def partialSum (g : Fin 8 → M) : ℕ → M
  | 0 => g 0
  | k + 1 => partialSum g k + (if h : k + 1 < 8 then g ⟨k + 1, h⟩ else 0)

@[simp] theorem partialSum_zero (g : Fin 8 → M) : partialSum g 0 = g 0 := rfl
theorem partialSum_succ (g : Fin 8 → M) (k : ℕ) (h : k + 1 < 8) :
    partialSum g (k + 1) = partialSum g k + g ⟨k + 1, h⟩ := by
  rw [partialSum, dif_pos h]

/-- After the eighth tile the running sum is the full sum. -/
theorem partialSum_seven (g : Fin 8 → M) : partialSum g 7 = ∑ j : Fin 8, g j := by
  rw [Fin.sum_univ_eight]
  show partialSum g (6 + 1) = _
  rw [partialSum_succ g 6 (by omega), partialSum_succ g 5 (by omega), partialSum_succ g 4 (by omega),
    partialSum_succ g 3 (by omega), partialSum_succ g 2 (by omega), partialSum_succ g 1 (by omega),
    partialSum_succ g 0 (by omega), partialSum_zero]
  rfl

/-- A sequence that starts at `g 0` and adds one tile's term at each step is the running sum, -/
theorem eq_partialSum (g : Fin 8 → M) (acc : ℕ → M) (h0 : acc 0 = g 0)
    (hs : ∀ (k : ℕ) (h : k + 1 < 8), acc (k + 1) = acc k + g ⟨k + 1, h⟩) :
    ∀ k : ℕ, k < 8 → acc k = partialSum g k
  | 0, _ => h0
  | k + 1, h => by rw [hs k h, partialSum_succ g k h, eq_partialSum g acc h0 hs k (by omega)]

/-- so its eighth value is the full sum; -/
theorem acc_seven (g : Fin 8 → M) (acc : ℕ → M) (h0 : acc 0 = g 0)
    (hs : ∀ (k : ℕ) (h : k + 1 < 8), acc (k + 1) = acc k + g ⟨k + 1, h⟩) : acc 7 = ∑ j : Fin 8, g j := by
  rw [eq_partialSum g acc h0 hs 7 (by omega), partialSum_seven]

/-- the same when the sequence starts from `z + g 0` with `z = 0`. -/
theorem acc_seven_of_zero (g : Fin 8 → M) (acc : ℕ → M) (z : M) (hz : z = 0) (h0 : acc 0 = z + g 0)
    (hs : ∀ (k : ℕ) (h : k + 1 < 8), acc (k + 1) = acc k + g ⟨k + 1, h⟩) : acc 7 = ∑ j : Fin 8, g j :=
  acc_seven g acc (by rw [h0, hz, zero_add]) hs

/-- A sum of `a + b` terms that vanish from position `a` on is the sum of the first `a`. -/
theorem sum_pad_add (a b : ℕ) (g : Fin (a + b) → M) (hz : ∀ k : Fin (a + b), a ≤ k.val → g k = 0) :
    ∑ k : Fin (a + b), g k = ∑ k : Fin a, g ⟨k.val, Nat.lt_add_right b k.isLt⟩ :=
  Fin.sum_trunc g fun j => hz _ (Nat.le_add_right a j.val)

/-- 896 terms that vanish from position 784 on. -/
theorem sum_pad (g : Fin 896 → M) (hz : ∀ k : Fin 896, 784 ≤ k.val → g k = 0) :
    ∑ k : Fin 896, g k = ∑ k : Fin 784, g ⟨k.val, by omega⟩ :=
  sum_pad_add 784 112 g hz

end Monoid

section ExtendedReals
variable {ι : Type*} [Fintype ι]

/-- A sum of products with zero on the left is zero. -/
theorem sum_zero_mul (f : ι → EReal) : ∑ k, 0 * f k = 0 := by simp only [zero_mul, Finset.sum_const_zero]
/-- A sum of products with zero on the right is zero. -/
theorem sum_mul_zero (f : ι → EReal) : ∑ k, f k * 0 = 0 := by simp only [mul_zero, Finset.sum_const_zero]

/-- A real minus itself is zero. -/
theorem sub_self_real (x : EReal) (hx : ∃ r : ℝ, x = (r : EReal)) : x - x = 0 := by
  obtain ⟨r, rfl⟩ := hx
  rw [← EReal.coe_sub, sub_self, EReal.coe_zero]

/-- `x * s + (x - x) * s = x * s` for a real `x`. -/
theorem mul_add_sub_self_mul (x s : EReal) (hx : ∃ r : ℝ, x = (r : EReal)) : x * s + (x - x) * s = x * s := by
  rw [sub_self_real x hx, zero_mul, add_zero]

/-- `x * w + x * (w - w) + (x - x) * w = x * w` for reals `x` and `w`. -/
theorem mul_add_mul_sub_self_add (x w : EReal) (hx : ∃ r : ℝ, x = (r : EReal)) (hw : ∃ r : ℝ, w = (r : EReal)) :
    x * w + x * (w - w) + (x - x) * w = x * w := by
  rw [sub_self_real x hx, sub_self_real w hw, zero_mul, mul_zero, add_zero, add_zero]

/-- The same under sums: `Σ a s + Σ (a - a) s = Σ a s` for real `a k`, -/
theorem sum_mul_add_sum_sub_self_mul (a s : ι → EReal) (ha : ∀ k, ∃ r : ℝ, a k = (r : EReal)) :
    ∑ k, a k * s k + ∑ k, (a k - a k) * s k = ∑ k, a k * s k := by
  simp only [fun k => sub_self_real (a k) (ha k), zero_mul, Finset.sum_const_zero, add_zero]

/-- and `Σ a w + Σ a (w - w) + Σ (a - a) w = Σ a w` for real `a k` and `w k`. -/
theorem sum_mul_add_sum_mul_sub_self_add (a w : ι → EReal) (ha : ∀ k, ∃ r : ℝ, a k = (r : EReal))
    (hw : ∀ k, ∃ r : ℝ, w k = (r : EReal)) :
    ∑ k, a k * w k + ∑ k, a k * (w k - w k) + ∑ k, (a k - a k) * w k = ∑ k, a k * w k := by
  simp only [fun k => sub_self_real (a k) (ha k), fun k => sub_self_real (w k) (hw k), zero_mul, mul_zero,
    Finset.sum_const_zero, add_zero]

end ExtendedReals

end Cert.LibTileSum
-- ==== Proof.Spec.lean ====
/-
  The pairwise-sigmoid mean as one function of three vectors, and the grid's order of summation.

  For scores `a`, a positive mask `p` and a negative mask `q` over 16384 entries, the pair (i, j) has weight
  `p i * q j` and term `sigmoid(-(a i - a j)) * (p i * q j)`, with `sigmoid z = 1 / (1 + exp (-z))`.  The loss is the
  sum of the terms over all pairs divided by the sum of the weights over all pairs.

  A 16 x 16 grid visits the pairs tile by tile: point `k` takes the rows `1024 (k / 16) + r` and the columns
  `1024 (k % 16) + c`.  Every pair lies in exactly one tile, and addition is commutative and associative in any
  commutative monoid (the extended reals included, infinities and all), so the sum over the points of the tile sums is the
  sum over all pairs (`grid_total`): no finiteness is needed.
-/
import Idealize.ShloMosaic.PureOps.Ideal
import proofs.«115635_j22136261443962_1_alg».proof.Proof.LibTileSum

noncomputable section

namespace Cert.Auc

open Idealize.ShloMosaic

/-- Grid point `k` of the 16 x 16 grid works on row block `k / 16`: its row `r` is entry `1024 (k / 16) + r`. -/
def rowOf (k : ℕ) (hk : k < 256) (r : Fin 1024) : Fin 16384 := ⟨1024 * (k / 16) + r.val, by omega⟩
/-- and on column block `k % 16`: its column `c` is entry `1024 (k % 16) + c`. -/
def colOf (k : ℕ) (hk : k < 256) (c : Fin 1024) : Fin 16384 := ⟨1024 * (k % 16) + c.val, by omega⟩

section Monoid
variable {M : Type*} [AddCommMonoid M]

/-- The sum over the 256 grid points of the sums over each point's 1024 x 1024 tile is the sum over all pairs. -/
theorem grid_total (g : Fin 16384 → Fin 16384 → M) :
    ∑ k : Fin 256, ∑ r : Fin 1024, ∑ c : Fin 1024, g (rowOf k.val k.isLt r) (colOf k.val k.isLt c)
      = ∑ i : Fin 16384, ∑ j : Fin 16384, g i j := by
  have hL := Cert.LibTileSum.sum_tiles_mul 16 16
    (fun k : Fin (16 * 16) => ∑ r : Fin 1024, ∑ c : Fin 1024, g (rowOf k.val k.isLt r) (colOf k.val k.isLt c))
  have hR := Cert.LibTileSum.sum_tiles_mul 16 1024 (fun i : Fin (16 * 1024) => ∑ j : Fin 16384, g i j)
  have hR2 : ∀ i : Fin 16384, ∑ j : Fin 16384, g i j
      = ∑ J : Fin 16, ∑ c : Fin 1024, g i ⟨1024 * J.val + c.val, Cert.LibTileSum.tile_lt J c⟩ :=
    fun i => Cert.LibTileSum.sum_tiles_mul 16 1024 (fun j : Fin (16 * 1024) => g i j)
  refine hL.trans (Eq.trans ?_ hR.symm)
  refine Finset.sum_congr rfl fun I _ => ?_
  simp only [hR2]
  rw [Finset.sum_comm]
  refine Finset.sum_congr rfl fun r _ => Finset.sum_congr rfl fun J _ => Finset.sum_congr rfl fun c _ => ?_
  have hI := I.isLt
  have hJ := J.isLt
  have e1 : rowOf (16 * I.val + J.val) (Cert.LibTileSum.tile_lt I J) r = ⟨1024 * I.val + r.val, Cert.LibTileSum.tile_lt I r⟩ :=
    Fin.ext (by show 1024 * ((16 * I.val + J.val) / 16) + r.val = 1024 * I.val + r.val; omega)
  have e2 : colOf (16 * I.val + J.val) (Cert.LibTileSum.tile_lt I J) c = ⟨1024 * J.val + c.val, Cert.LibTileSum.tile_lt J c⟩ :=
    Fin.ext (by show 1024 * ((16 * I.val + J.val) % 16) + c.val = 1024 * J.val + c.val; omega)
  rw [e1, e2]

end Monoid

/-- The weight of the pair (i, j). -/
def weight (p q : Fin 16384 → EReal) (i j : Fin 16384) : EReal := p i * q j

/-- The term of the pair (i, j). -/
def term (a p q : Fin 16384 → EReal) (i j : Fin 16384) : EReal := Ideal.logistic (-(a i - a j)) * (p i * q j)

/-- The weighted sum of the pair terms. -/
def numerator (a p q : Fin 16384 → EReal) : EReal := ∑ i : Fin 16384, ∑ j : Fin 16384, term a p q i j

/-- The sum of the pair weights. -/
def denominator (p q : Fin 16384 → EReal) : EReal := ∑ i : Fin 16384, ∑ j : Fin 16384, weight p q i j

end Cert.Auc

end
-- ==== Proof.FoundPieces.lean ====
/-
  What one grid point leaves in the two accumulator cells.

  The kernel keeps two [1,1] cells, a numerator and a denominator, across all grid points.  At the first point each
  cell is set to zero, read back, and the tile's contribution is added; at every later point the cell's running value is
  read and the tile's contribution is added.  Each of the four lemmas reads what the point's stores leave in a cell as the
  pure term of the loaded blocks: the numerator's new value is the old one plus the sum over the tile of
  sigmoid(-(x_r - x_c)) * (pos_r * neg_c); the denominator's is the old one plus the sum over the tile of pos_r * neg_c.
-/
import proofs.«115635_j22136261443962_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- At a later grid point the numerator's cell, holding `xo4`, is left at `xo4` plus the tile's weighted sigmoid sum. -/
theorem num_later (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond0_0 i)
    (x0 : Vec F S1024x1 .f32) (x1 : Vec F S1x1024 .f32) (x2 : Vec F S1024x1 .f32) (x3 : Vec F S1x1024 .f32) (xo4 : Vec F S1x1 .f32) (xo5 : Vec F S1x1 .f32) :
    out0_B_4 c i arg2 harg2 arg3 harg3 arg4 harg4 arg5 harg5 arg6 harg6 arg7 harg7 hc0 x0 x1 x2 x3 xo4 xo5 = k0_pay6 x0 x1 x2 x3 xo4 := by
  unfold out0_B_4
  rw [View.read_writes_eq_canon _ _ _ (cover0_B_4 c i arg2 harg2 arg3 harg3 arg4 harg4 arg5 harg5 arg6 harg6 arg7 harg7 hc0 x0 x1 x2 x3 xo4 xo5)]
  unfold kernelRun0_B
  dsimp only
  rw [View.canon_unit_zero hz]
  simp only [View.readAt_eq_ld, harg2.read_unread, harg3.read_unread, harg4.read_unread, harg5.read_unread, harg6.read_unread, harg7.read_unread,
    View.ld_unit_zero (S := S1024x1) hz, View.ld_unit_zero (S := S1x1024) hz, View.ld_unit_zero (S := S1x1) hz]

/-- At a later grid point the denominator's cell, holding `xo5`, is left at `xo5` plus the tile's weight sum. -/
theorem den_later (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : ¬cond0_0 i)
    (x0 : Vec F S1024x1 .f32) (x1 : Vec F S1x1024 .f32) (x2 : Vec F S1024x1 .f32) (x3 : Vec F S1x1024 .f32) (xo4 : Vec F S1x1 .f32) (xo5 : Vec F S1x1 .f32) :
    out0_B_5 c i arg2 harg2 arg3 harg3 arg4 harg4 arg5 harg5 arg6 harg6 arg7 harg7 hc0 x0 x1 x2 x3 xo4 xo5 = k0_pay1 (k0_pay5 x2 x3) xo5 := by
  unfold out0_B_5
  rw [View.read_writes_eq_canon _ _ _ (cover0_B_5 c i arg2 harg2 arg3 harg3 arg4 harg4 arg5 harg5 arg6 harg6 arg7 harg7 hc0 x0 x1 x2 x3 xo4 xo5)]
  unfold kernelRun0_B
  dsimp only
  sl_unfold_words
  rw [View.canon_unit_zero hz]
  simp only [View.readAt_eq_ld, harg2.read_unread, harg3.read_unread, harg4.read_unread, harg5.read_unread, harg6.read_unread, harg7.read_unread,
    View.ld_unit_zero (S := S1024x1) hz, View.ld_unit_zero (S := S1x1024) hz, View.ld_unit_zero (S := S1x1) hz]

/-- At the first grid point the numerator's cell is zeroed, read back, and left at zero plus the tile's sum. -/
theorem num_first (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : cond0_0 i)
    (x0 : Vec F S1024x1 .f32) (x1 : Vec F S1x1024 .f32) (x2 : Vec F S1024x1 .f32) (x3 : Vec F S1x1024 .f32) :
    out0_A_4 c i arg2 harg2 arg3 harg3 arg4 harg4 arg5 harg5 arg6 harg6 arg7 harg7 hc0 x0 x1 x2 x3 = k0_pay6 x0 x1 x2 x3 (k0_pay2 (F := F)) := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread,
    View.ld_unit_zero (S := S1024x1) hz, View.ld_unit_zero (S := S1x1024) hz, View.ld_unit_zero (S := S1x1) hz]

/-- At the first grid point the denominator's cell is zeroed, read back, and left at zero plus the tile's weight sum. -/
theorem den_first (c : Dev nD) (i : grid0.Coords) (arg2 : Memref sig .tc .vmem S1024x1 .f32) (harg2 : arg2.IsWhole) (arg3 : Memref sig .tc .vmem S1x1024 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x1 .f32) (harg7 : arg7.IsWhole) (hc0 : cond0_0 i)
    (x0 : Vec F S1024x1 .f32) (x1 : Vec F S1x1024 .f32) (x2 : Vec F S1024x1 .f32) (x3 : Vec F S1x1024 .f32) :
    out0_A_5 c i arg2 harg2 arg3 harg3 arg4 harg4 arg5 harg5 arg6 harg6 arg7 harg7 hc0 x0 x1 x2 x3 = k0_pay1 (k0_pay5 x2 x3) (k0_pay3 (F := F)) := by
  unfold out0_A_5
  rw [View.read_writes_eq_canon _ _ _ (cover0_A_5 c i arg2 harg2 arg3 harg3 arg4 harg4 arg5 harg5 arg6 harg6 arg7 harg7 hc0 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg6.read_unread, harg7.read_unread,
    View.ld_unit_zero (S := S1024x1) hz, View.ld_unit_zero (S := S1x1024) hz, View.ld_unit_zero (S := S1x1) hz]

end Cert.KernelIdeal.Found

end
-- ==== Proof.LibKeepdims.lean ====
/-
  A row-wise reduction kept as a column (`keepdims=True`) and spread back over the row, read at an index.

  A matrix `v : [a, b]` reduced along its rows gives a vector `[a]`; the vector is re-laid as a column `[a, 1]` and
  the column is broadcast to `[a, b]`. At `(r, c)` the result is the reduction of row `r`, whatever `c`. This file has
  the two layout steps (`[a] → [a, 1]`, `[a, 1] → [a, b]`) at any element type, and, on the extended reals, the two
  reductions a softmax uses read at a row: the maximum as a fold of `max` over the row's entries and the sum as a `∑`.
-/
import Idealize.ShloMosaic.PureOps.Ideal.Laws
import Idealize.ShloMosaic.Lib.Pipeline.Value
import Idealize.ShloMosaic.Lib.ValueIdx

namespace Cert.Keepdims

open Idealize.ShloMosaic Idealize.ShloMosaic.ValueIdx

section Layout
variable {α : Type}

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: a vector kept as a column and spread over the rows reads, at `(p, c)`, the vector at `p`. -/
theorem spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

end Layout

section Reductions
variable {φ : FTy}

/-- Row `r` of a matrix reached through the index a reduction along the rows inserts. -/
theorem lift_row {a b : ℕ} (h : Shape.Reduces ⟨2, ![a, b]⟩ [1] ⟨1, ![a]⟩) (r : Fin a) (s : Fin b) :
    h.lift (ix1 r) s = ix2 r s :=
  funext fun d => Fin.ext (by match d with | ⟨0, _⟩ => rfl | ⟨1, _⟩ => rfl)

/-- On the extended reals the maximum along the rows, at row `r`, is the fold of `max`, from the accumulator's value,
    over that row's entries. -/
theorem rowMax_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.maximumf.neutral φ hφ) (r : Fin a) :
    multiReduction .maximumf [1] ⟨1, ![a]⟩ v acc h hφ hacc (ix1 r)
      = (Finset.univ : Finset (Fin b)).fold max (FloatOps.ofBits (F := Ideal) φ acc) (fun s => v (ix2 r s)) :=
  (Ideal.multiReduction_maximumf_single v acc h hφ hacc (ix1 r)).trans
    (congrArg (fun f => (Finset.univ : Finset (Fin b)).fold max (FloatOps.ofBits (F := Ideal) φ acc) f)
      (funext fun s => congrArg v (lift_row h r s)))

/-- On the extended reals the sum along the rows, at row `r`, is the sum of that row's entries. -/
theorem rowSum_apply {a b : ℕ} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (r : Fin a) :
    multiReduction .add [1] ⟨1, ![a]⟩ v acc h hφ hacc (ix1 r) = ∑ s : Fin b, v (ix2 r s) :=
  (Ideal.multiReduction_add_single v acc h hφ hacc (ix1 r)).trans
    (Finset.sum_congr rfl fun s _ => congrArg v (lift_row h r s))

end Reductions

end Cert.Keepdims
-- ==== Proof.LibColSum.lean ====
/-
  A matrix summed down its columns, and the cell layouts around a sum kept with `keepdims`.

  A matrix `v : [a, b]` reduced along axis 0 gives a vector `[b]`; at column `s` it is the sum over the rows `r` of
  `v (r, s)`, on the extended reals.  A one-entry vector `[1]` re-laid as a cell `[1, 1]` reads its one entry.  Together
  with a row sum this reads "sum the rows, keep a column, sum the column, keep a cell" as one double sum.
-/
import Idealize.ShloMosaic.PureOps.Ideal.Laws
import Idealize.ShloMosaic.Lib.Pipeline.Value
import Idealize.ShloMosaic.Lib.ValueIdx

namespace Cert.ColSum

open Idealize.ShloMosaic Idealize.ShloMosaic.ValueIdx

variable {φ : FTy}

/-- Column `s` of a matrix reached through the index a reduction along the columns inserts. -/
theorem lift_col {a b : ℕ} (h : Shape.Reduces ⟨2, ![a, b]⟩ [0] ⟨1, ![b]⟩) (s : Fin b) (r : Fin a) :
    h.lift (ix1 s) r = ix2 r s :=
  funext fun d => Fin.ext (by match d with | ⟨0, _⟩ => rfl | ⟨1, _⟩ => rfl)

/-- On the extended reals the sum down the columns, at column `s`, is the sum of that column's entries. -/
theorem colSum_apply {a b : ℕ} (v : FVec Ideal ⟨2, ![a, b]⟩ φ) (acc : BitVec φ.bits)
    (h : Shape.Reduces ⟨2, ![a, b]⟩ [0] ⟨1, ![b]⟩) (hφ : FKind.Formats φ) (hacc : acc = FKind.add.neutral φ hφ) (s : Fin b) :
    multiReduction .add [0] ⟨1, ![b]⟩ v acc h hφ hacc (ix1 s) = ∑ r : Fin a, v (ix2 r s) :=
  (Ideal.multiReduction_add_single v acc h hφ hacc (ix1 s)).trans
    (Finset.sum_congr rfl fun r _ => congrArg v (lift_col h s r))

end Cert.ColSum
-- ==== Proof.TileValue.lean ====
/-
  One tile's arithmetic on the extended reals.

  A tile pairs a block of 1024 rows r with a block of 1024 columns c.  Its pair weight is pos_r * neg_c; the
  denominator's contribution is the sum of the weights over the tile; the numerator's contribution is the sum over the
  tile of sigmoid(-(x_r - x_c)) times the weight, where sigmoid(z) = 1 / (1 + exp(-z)) and the kernel writes the
  negation as 0 - (x_r - x_c).  The body sums each row first, keeps the row sums as a column, sums the column, and keeps
  the result as a [1,1] cell: read at the cell's one index this is the plain double sum over (r, c).  The cell's new
  value is its old value plus that double sum; the value stored at the first point before accumulating is zero.
-/
import proofs.«115635_j22136261443962_1_alg».proof.Proof.Gen.KernelIdeal.Skeleton
import proofs.«115635_j22136261443962_1_alg».proof.Proof.LibKeepdims
import proofs.«115635_j22136261443962_1_alg».proof.Proof.LibColSum
import Idealize.ShloMosaic.Lib.ValueLayout
import Idealize.ShloMosaic.PureOps.Ideal.Laws

noncomputable section

open Idealize.ShloMosaic

namespace Cert.KernelIdeal.Tile

open Cert.KernelIdeal Cert.KernelIdeal.Gen Idealize.ShloMosaic.ValueIdx

/-- The pair weight over a tile: entry (r, c) is the column block's entry r times the row block's entry c. -/
theorem weight_apply (v9 : Vec Ideal S1024x1 .f32) (v11 : Vec Ideal S1x1024 .f32) (r c : Fin 1024) :
    k0_pay4 (F := Ideal) v9 v11 (ix2 r c) = v9 (ix2 r 0) * v11 (ix2 0 c) := by
  unfold k0_pay4
  rw [shapeCast_self, shapeCast_self]
  refine (mulf_apply _ _ _).trans ?_
  rw [Cert.Keepdims.broadcastTo_a1_ab_apply, broadcastTo_1b_ab_apply]

/-- The tile's weight sum, kept as a cell. -/
theorem weightSum_apply (v9 : Vec Ideal S1024x1 .f32) (v11 : Vec Ideal S1x1024 .f32) :
    k0_pay5 (F := Ideal) v9 v11 (ix2 0 0) = ∑ r : Fin 1024, ∑ c : Fin 1024, v9 (ix2 r 0) * v11 (ix2 0 c) := by
  unfold k0_pay5
  refine (Cert.Keepdims.shapeCast_a_a1_apply _ _ (0 : Fin 1) (0 : Fin 1)).trans ?_
  refine (Cert.ColSum.colSum_apply _ _ _ _ _ (0 : Fin 1)).trans ?_
  refine Finset.sum_congr rfl fun r _ => ?_
  refine (Cert.Keepdims.shapeCast_a_a1_apply _ _ r (0 : Fin 1)).trans ?_
  refine (Cert.Keepdims.rowSum_apply _ _ _ _ _ r).trans ?_
  exact Finset.sum_congr rfl fun c _ => weight_apply v9 v11 r c

/-- The numerator's cell after a point: the value it held plus the sum over the tile of
    sigmoid(-(x_r - x_c)) * (pos_r * neg_c). -/
theorem sigmoidSum_apply (v5 v9 : Vec Ideal S1024x1 .f32) (v7 v11 : Vec Ideal S1x1024 .f32) (v31 : Vec Ideal S1x1 .f32) :
    k0_pay6 (F := Ideal) v5 v7 v9 v11 v31 (ix2 0 0)
      = v31 (ix2 0 0) + ∑ r : Fin 1024, ∑ c : Fin 1024,
          Ideal.logistic (-(v5 (ix2 r 0) - v7 (ix2 0 c))) * (v9 (ix2 r 0) * v11 (ix2 0 c)) := by
  unfold k0_pay6
  rw [shapeCast_self, shapeCast_self, shapeCast_self]
  refine (addf_apply _ _ _).trans ?_
  refine congrArg (fun z => v31 (ix2 0 0) + z) ?_
  refine (Cert.Keepdims.shapeCast_a_a1_apply _ _ (0 : Fin 1) (0 : Fin 1)).trans ?_
  refine (Cert.ColSum.colSum_apply _ _ _ _ _ (0 : Fin 1)).trans ?_
  refine Finset.sum_congr rfl fun r _ => ?_
  refine (Cert.Keepdims.shapeCast_a_a1_apply _ _ r (0 : Fin 1)).trans ?_
  refine (Cert.Keepdims.rowSum_apply _ _ _ _ _ r).trans ?_
  refine Finset.sum_congr rfl fun c _ => ?_
  refine (mulf_apply _ _ _).trans ?_
  rw [weight_apply]
  refine congrArg (fun z => z * (v9 (ix2 r 0) * v11 (ix2 0 c))) ?_
  show Ideal.logistic (Ideal.ofBits .f32 0x00000000#32
    - (broadcastTo S1024x1024 v5 broadcasts_S1024x1_S1024x1024 (ix2 r c)
        - broadcastTo S1024x1024 v7 broadcasts_S1x1024_S1024x1024 (ix2 r c))) = _
  rw [Cert.Keepdims.broadcastTo_a1_ab_apply, broadcastTo_1b_ab_apply, Ideal.ofBits_zero_f32, zero_sub]

/-- The denominator's cell after a point: the value it held plus the tile's weight sum. -/
theorem addCell_apply (v30 : FVec Ideal S1x1 .f32) (v35 : Vec Ideal S1x1 .f32) :
    k0_pay1 (F := Ideal) v30 v35 (ix2 0 0) = v35 (ix2 0 0) + v30 (ix2 0 0) := by
  unfold k0_pay1
  rw [shapeCast_self]
  exact addf_apply _ _ _

/-- The cell the first point stores before accumulating is zero. -/
theorem zeroNum_apply (y : S1x1.Idx) : k0_pay2 (F := Ideal) y = 0 := by
  unfold k0_pay2
  exact Ideal.ofBits_zero_f32
theorem zeroDen_apply (y : S1x1.Idx) : k0_pay3 (F := Ideal) y = 0 := by
  unfold k0_pay3
  exact Ideal.ofBits_zero_f32

end Cert.KernelIdeal.Tile

end
-- ==== Proof.Blocks.lean ====
/-
  What the kernel's windows show at a grid point.

  Before the region the host lays the scores as a column [16384,1] and as a row [1,16384], and the two label masks
  (label = 1 as a column, label = 0 as a row) likewise.  At grid point t the column windows show rows
  1024 (t / 16) .. 1024 (t / 16) + 1023 and the row windows show columns 1024 (t % 16) .. 1024 (t % 16) + 1023.  So a
  block's entry r (or s) is the score, or the mask, of entry 1024 (t / 16) + r (or 1024 (t % 16) + s) of the argument.
-/
import proofs.«115635_j22136261443962_1_alg».proof.Proof.Gen.KernelIdeal.Frame
import proofs.«115635_j22136261443962_1_alg».proof.Proof.LibKeepdims
import proofs.«115635_j22136261443962_1_alg».proof.Proof.Spec
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Auc

variable {F : FTy → Type} [FloatOps F]
variable (m : (ℓ : Loc nD τ sig) → Buf (Elt F) ℓ)

/-- The mask of the labels equal to `k`, as floats: 1 where the label is `k`, 0 elsewhere. -/
def mask (k : BitVec 32) (y : (⟨S16384, .i32⟩ : BufTy).Contents (Elt F)) : (⟨S16384, .f32⟩ : BufTy).Contents (Elt F) :=
  uitofp .f32 (cmpi .eq y (broadcastInDim S16384 ![] bcast_S_S16384 (constantI S_ 32 k)))

/-! What the region finds in its four operand arrays: the scores laid as a column and as a row, the positive mask as a
    column, the negative mask as a row. -/

theorem entry_v6 (c : Dev nD) : (V m c main_v6 : S16384x1.Idx → Elt F .f32)
    = shapeCast S16384x1 (m ((c : Thread nD τ).loc main_arg0)) shapeCasts_S16384_S16384x1 := by
  show StableHlo.after hostOps0 (fun b => m (c, b)) (Proc.devRef .tc main_v6) = _
  after_results
  rfl

theorem entry_v7 (c : Dev nD) : (V m c main_v7 : S1x16384.Idx → Elt F .f32)
    = shapeCast S1x16384 (m ((c : Thread nD τ).loc main_arg0)) shapeCasts_S16384_S1x16384 := by
  show StableHlo.after hostOps0 (fun b => m (c, b)) (Proc.devRef .tc main_v7) = _
  after_results
  rfl

theorem entry_v8 (c : Dev nD) : (V m c main_v8 : S16384x1.Idx → Elt F .f32)
    = shapeCast S16384x1 (mask 1#32 (m ((c : Thread nD τ).loc main_arg1))) shapeCasts_S16384_S16384x1 := by
  show StableHlo.after hostOps0 (fun b => m (c, b)) (Proc.devRef .tc main_v8) = _
  after_results
  rfl

theorem entry_v9 (c : Dev nD) : (V m c main_v9 : S1x16384.Idx → Elt F .f32)
    = shapeCast S1x16384 (mask 0#32 (m ((c : Thread nD τ).loc main_arg1))) shapeCasts_S16384_S1x16384 := by
  show StableHlo.after hostOps0 (fun b => m (c, b)) (Proc.devRef .tc main_v9) = _
  after_results
  rfl

/-! Which block each operand's window shows at a grid point. -/

theorem colWindow : ∀ t : Fin cfg0.N, (win0_0.index t (0 : Fin 2) = t.val / 16 ∧ win0_0.index t (1 : Fin 2) = 0)
    ∧ (win0_2.index t (0 : Fin 2) = t.val / 16 ∧ win0_2.index t (1 : Fin 2) = 0) :=
  (by decide +kernel : ∀ t : Fin grid0.N, (win0_0.index t (0 : Fin 2) = t.val / 16 ∧ win0_0.index t (1 : Fin 2) = 0)
    ∧ (win0_2.index t (0 : Fin 2) = t.val / 16 ∧ win0_2.index t (1 : Fin 2) = 0))

theorem rowWindow : ∀ t : Fin cfg0.N, (win0_1.index t (0 : Fin 2) = 0 ∧ win0_1.index t (1 : Fin 2) = t.val % 16)
    ∧ (win0_3.index t (0 : Fin 2) = 0 ∧ win0_3.index t (1 : Fin 2) = t.val % 16) :=
  (by decide +kernel : ∀ t : Fin grid0.N, (win0_1.index t (0 : Fin 2) = 0 ∧ win0_1.index t (1 : Fin 2) = t.val % 16)
    ∧ (win0_3.index t (0 : Fin 2) = 0 ∧ win0_3.index t (1 : Fin 2) = t.val % 16))

theorem lt256 (t : Fin cfg0.N) : t.val < 256 := lt_of_lt_of_eq t.isLt (show cfg0.N = 256 from N_0)

/-- The score column's block at point `t`, at row `r`, is the score of entry `1024 (t / 16) + r`. -/
theorem scoreCol (c : Dev nD) (t : Fin cfg0.N) (r : Fin 1024) :
    (iblk m c 0 t : Vec F S1024x1 .f32) (ix2 r (0 : Fin 1))
      = m ((c : Thread nD τ).loc main_arg0) (ix1 (rowOf t.val (lt256 t) r)) := by
  unfold iblk
  rw [View.read_apply]
  show V m c main_v6 _ = _
  rw [entry_v6]
  have e : ((cfg0.win 0).blk t).view.emb (ix2 r (0 : Fin 1))
      = (ix2 (rowOf t.val (lt256 t) r) (0 : Fin 1) : S16384x1.Idx) := by
    funext a; apply Fin.ext
    match a with
    | ⟨0, _⟩ =>
      show win0_0.index t 0 * 1024 + 1 * r.val = 1024 * (t.val / 16) + r.val
      rw [(colWindow t).1.1]; omega
    | ⟨1, _⟩ =>
      show win0_0.index t 1 * 1 + 1 * 0 = 0
      rw [(colWindow t).1.2]
  rw [e]
  exact Cert.Keepdims.shapeCast_a_a1_apply _ _ _ _

/-- The score row's block at point `t`, at column `s`, is the score of entry `1024 (t % 16) + s`. -/
theorem scoreRow (c : Dev nD) (t : Fin cfg0.N) (s : Fin 1024) :
    (iblk m c 1 t : Vec F S1x1024 .f32) (ix2 (0 : Fin 1) s)
      = m ((c : Thread nD τ).loc main_arg0) (ix1 (colOf t.val (lt256 t) s)) := by
  unfold iblk
  rw [View.read_apply]
  show V m c main_v7 _ = _
  rw [entry_v7]
  have e : ((cfg0.win 1).blk t).view.emb (ix2 (0 : Fin 1) s)
      = (ix2 (0 : Fin 1) (colOf t.val (lt256 t) s) : S1x16384.Idx) := by
    funext a; apply Fin.ext
    match a with
    | ⟨0, _⟩ =>
      show win0_1.index t 0 * 1 + 1 * 0 = 0
      rw [(rowWindow t).1.1]
    | ⟨1, _⟩ =>
      show win0_1.index t 1 * 1024 + 1 * s.val = 1024 * (t.val % 16) + s.val
      rw [(rowWindow t).1.2]; omega
  rw [e]
  exact shapeCast_a_1a_apply _ _ _ _

/-- The positive mask's block at point `t`, at row `r`, is the mask of entry `1024 (t / 16) + r`. -/
theorem posCol (c : Dev nD) (t : Fin cfg0.N) (r : Fin 1024) :
    (iblk m c 2 t : Vec F S1024x1 .f32) (ix2 r (0 : Fin 1))
      = mask 1#32 (m ((c : Thread nD τ).loc main_arg1)) (ix1 (rowOf t.val (lt256 t) r)) := by
  unfold iblk
  rw [View.read_apply]
  show V m c main_v8 _ = _
  rw [entry_v8]
  have e : ((cfg0.win 2).blk t).view.emb (ix2 r (0 : Fin 1))
      = (ix2 (rowOf t.val (lt256 t) r) (0 : Fin 1) : S16384x1.Idx) := by
    funext a; apply Fin.ext
    match a with
    | ⟨0, _⟩ =>
      show win0_2.index t 0 * 1024 + 1 * r.val = 1024 * (t.val / 16) + r.val
      rw [(colWindow t).2.1]; omega
    | ⟨1, _⟩ =>
      show win0_2.index t 1 * 1 + 1 * 0 = 0
      rw [(colWindow t).2.2]
  rw [e]
  exact Cert.Keepdims.shapeCast_a_a1_apply _ _ _ _

/-- The negative mask's block at point `t`, at column `s`, is the mask of entry `1024 (t % 16) + s`. -/
theorem negRow (c : Dev nD) (t : Fin cfg0.N) (s : Fin 1024) :
    (iblk m c 3 t : Vec F S1x1024 .f32) (ix2 (0 : Fin 1) s)
      = mask 0#32 (m ((c : Thread nD τ).loc main_arg1)) (ix1 (colOf t.val (lt256 t) s)) := by
  unfold iblk
  rw [View.read_apply]
  show V m c main_v9 _ = _
  rw [entry_v9]
  have e : ((cfg0.win 3).blk t).view.emb (ix2 (0 : Fin 1) s)
      = (ix2 (0 : Fin 1) (colOf t.val (lt256 t) s) : S1x16384.Idx) := by
    funext a; apply Fin.ext
    match a with
    | ⟨0, _⟩ =>
      show win0_3.index t 0 * 1 + 1 * 0 = 0
      rw [(rowWindow t).2.1]
    | ⟨1, _⟩ =>
      show win0_3.index t 1 * 1024 + 1 * s.val = 1024 * (t.val % 16) + s.val
      rw [(rowWindow t).2.2]; omega
  rw [e]
  exact shapeCast_a_1a_apply _ _ _ _

end Cert.KernelIdeal.Blocks

end
-- ==== Proof.Accumulate.lean ====
/-
  The two cells after every grid point.

  One point's step adds to the numerator's cell the sum of the pair terms over the point's tile and to the denominator's
  cell the sum of the pair weights over the tile (the tile's blocks read as entries of the arguments).  The first point
  starts both cells from the zero it stores.  By induction on the point, after point n each cell holds the sum of the
  contributions of the points 0 .. n.
-/
import proofs.«115635_j22136261443962_1_alg».proof.Proof.Gen.KernelIdeal.Frame
import proofs.«115635_j22136261443962_1_alg».proof.Proof.Spec
import proofs.«115635_j22136261443962_1_alg».proof.Proof.FoundPieces
import proofs.«115635_j22136261443962_1_alg».proof.Proof.TileValue
import proofs.«115635_j22136261443962_1_alg».proof.Proof.Blocks
import Idealize.ShloMosaic.Lib.Pipeline.Value
import Idealize.ShloMosaic.Lib.StableHlo.Run
import Idealize.ShloMosaic.Lib.IdealHost
import Idealize.ShloMosaic.Lib.Tactic

noncomputable section

open Idealize.ShloMosaic Idealize.ShloMosaic.TcCoe Idealize.SL.Sem
open Idealize.ShloMosaic.Pipeline (Dat)

namespace Cert.KernelIdeal.Value

open Cert.KernelIdeal Cert.KernelIdeal.Gen Idealize.ShloMosaic.ValueIdx Cert.Auc

/-- A [1,1] cell has one index. -/
theorem cell_idx (y : S1x1.Idx) : y = ix2 (0 : Fin 1) (0 : Fin 1) := by
  funext a; apply Fin.ext
  match a with
  | ⟨0, _⟩ => have : (y 0).val < 1 := (y 0).isLt; show (y 0).val = 0; omega
  | ⟨1, _⟩ => have : (y 1).val < 1 := (y 1).isLt; show (y 1).val = 0; omega

/-- One point's step on the numerator's cell, over blocks that are the tile of point `k`: the cell gains the sum of
    the pair terms over the tile. -/
theorem num_step (x0 x2 : Vec Ideal S1024x1 .f32) (x1 x3 : Vec Ideal S1x1024 .f32) (xo : Vec Ideal S1x1 .f32)
    (a p q : Fin 16384 → EReal) (k : ℕ) (hk : k < 256)
    (h0 : ∀ r, x0 (ix2 r (0 : Fin 1)) = a (rowOf k hk r)) (h1 : ∀ s, x1 (ix2 (0 : Fin 1) s) = a (colOf k hk s))
    (h2 : ∀ r, x2 (ix2 r (0 : Fin 1)) = p (rowOf k hk r)) (h3 : ∀ s, x3 (ix2 (0 : Fin 1) s) = q (colOf k hk s)) :
    k0_pay6 (F := Ideal) x0 x1 x2 x3 xo (ix2 0 0)
      = xo (ix2 0 0) + ∑ r : Fin 1024, ∑ s : Fin 1024, term a p q (rowOf k hk r) (colOf k hk s) := by
  rw [Tile.sigmoidSum_apply]
  refine congrArg (fun z => xo (ix2 0 0) + z) ?_
  refine Finset.sum_congr rfl fun r _ => Finset.sum_congr rfl fun s _ => ?_
  rw [h0, h1, h2, h3]
  rfl

/-- One point's step on the denominator's cell: the cell gains the sum of the pair weights over the tile. -/
theorem den_step (x2 : Vec Ideal S1024x1 .f32) (x3 : Vec Ideal S1x1024 .f32) (xo : Vec Ideal S1x1 .f32)
    (p q : Fin 16384 → EReal) (k : ℕ) (hk : k < 256)
    (h2 : ∀ r, x2 (ix2 r (0 : Fin 1)) = p (rowOf k hk r)) (h3 : ∀ s, x3 (ix2 (0 : Fin 1) s) = q (colOf k hk s)) :
    k0_pay1 (F := Ideal) (k0_pay5 x2 x3) xo (ix2 0 0)
      = xo (ix2 0 0) + ∑ r : Fin 1024, ∑ s : Fin 1024, weight p q (rowOf k hk r) (colOf k hk s) := by
  rw [Tile.addCell_apply, Tile.weightSum_apply]
  refine congrArg (fun z => xo (ix2 0 0) + z) ?_
  refine Finset.sum_congr rfl fun r _ => Finset.sum_congr rfl fun s _ => ?_
  rw [h2, h3]
  rfl

variable (m : (ℓ : Loc nD τ sig) → Buf (Elt Ideal) ℓ) (ρ : Dev nD → PrngReg)

/-- The scores, and the two label masks, entry by entry. -/
def scores (c : Dev nD) : Fin 16384 → EReal := fun i => m ((c : Thread nD τ).loc main_arg0) (ix1 i)
def pos (c : Dev nD) : Fin 16384 → EReal := fun i => Blocks.mask (F := Ideal) 1#32 (m ((c : Thread nD τ).loc main_arg1)) (ix1 i)
def neg (c : Dev nD) : Fin 16384 → EReal := fun i => Blocks.mask (F := Ideal) 0#32 (m ((c : Thread nD τ).loc main_arg1)) (ix1 i)

/-- The numerator's and the denominator's contribution of the tile of grid point `k`. -/
def tileNum (c : Dev nD) (k : ℕ) (hk : k < 256) : EReal :=
  ∑ r : Fin 1024, ∑ s : Fin 1024, term (scores m c) (pos m c) (neg m c) (rowOf k hk r) (colOf k hk s)
def tileDen (c : Dev nD) (k : ℕ) (hk : k < 256) : EReal :=
  ∑ r : Fin 1024, ∑ s : Fin 1024, weight (pos m c) (neg m c) (rowOf k hk r) (colOf k hk s)

theorem below {n : ℕ} (h : n < cfg0.N) (k : Fin (n + 1)) : k.val < 256 := by
  have hN : cfg0.N = 256 := N_0
  have := k.isLt
  omega

/-- After grid point `n` the two cells hold the sums of the contributions of the points `0 .. n`: by induction on the
    point, the first point starting from the stored zero. -/
theorem running (c : Dev nD) : ∀ (n : ℕ) (h : n < cfg0.N),
    (outsAt0 m c n h).1 (ix2 0 0) = ∑ k : Fin (n + 1), tileNum m c k.val (below h k)
    ∧ (outsAt0 m c n h).2 (ix2 0 0) = ∑ k : Fin (n + 1), tileDen m c k.val (below h k)
  | 0, h => by
    rw [outsAt0_A m c ⟨0, h⟩ rfl]
    dsimp only
    rw [Found.num_first, Found.den_first]
    refine ⟨?_, ?_⟩
    · refine (num_step (iblk m c 0 ⟨0, h⟩) (iblk m c 2 ⟨0, h⟩) (iblk m c 1 ⟨0, h⟩) (iblk m c 3 ⟨0, h⟩) (k0_pay2 (F := Ideal))
        (scores m c) (pos m c) (neg m c) 0 (by decide) (Blocks.scoreCol m c ⟨0, h⟩) (Blocks.scoreRow m c ⟨0, h⟩)
        (Blocks.posCol m c ⟨0, h⟩) (Blocks.negRow m c ⟨0, h⟩)).trans ?_
      rw [Tile.zeroNum_apply, zero_add]
      exact (Fin.sum_univ_one (fun k : Fin 1 => tileNum m c k.val (below h k))).symm
    · refine (den_step (iblk m c 2 ⟨0, h⟩) (iblk m c 3 ⟨0, h⟩) (k0_pay3 (F := Ideal))
        (pos m c) (neg m c) 0 (by decide) (Blocks.posCol m c ⟨0, h⟩) (Blocks.negRow m c ⟨0, h⟩)).trans ?_
      rw [Tile.zeroDen_apply, zero_add]
      exact (Fin.sum_univ_one (fun k : Fin 1 => tileDen m c k.val (below h k))).symm
  | n + 1, h => by
    have hN : cfg0.N = 256 := N_0
    have hB : ¬(⟨n + 1, h⟩ : Fin cfg0.N).val % 256 = 0 := by dsimp only; omega
    obtain ⟨ih1, ih2⟩ := running c n (Nat.lt_of_succ_lt h)
    rw [outsAt0_B m c ⟨n + 1, h⟩ hB]
    dsimp only
    rw [Found.num_later, Found.den_later]
    refine ⟨?_, ?_⟩
    · refine (num_step (iblk m c 0 ⟨n + 1, h⟩) (iblk m c 2 ⟨n + 1, h⟩) (iblk m c 1 ⟨n + 1, h⟩) (iblk m c 3 ⟨n + 1, h⟩) _
        (scores m c) (pos m c) (neg m c) (n + 1) (by omega) (Blocks.scoreCol m c ⟨n + 1, h⟩) (Blocks.scoreRow m c ⟨n + 1, h⟩)
        (Blocks.posCol m c ⟨n + 1, h⟩) (Blocks.negRow m c ⟨n + 1, h⟩)).trans ?_
      refine Eq.trans ?_ (Fin.sum_univ_castSucc (fun k : Fin (n + 1 + 1) => tileNum m c k.val (below h k))).symm
      exact congrArg₂ (· + ·) ih1 rfl
    · refine (den_step (iblk m c 2 ⟨n + 1, h⟩) (iblk m c 3 ⟨n + 1, h⟩) _
        (pos m c) (neg m c) (n + 1) (by omega) (Blocks.posCol m c ⟨n + 1, h⟩) (Blocks.negRow m c ⟨n + 1, h⟩)).trans ?_
      refine Eq.trans ?_ (Fin.sum_univ_castSucc (fun k : Fin (n + 1 + 1) => tileDen m c k.val (below h k))).symm
      exact congrArg₂ (· + ·) ih2 rfl

end Cert.KernelIdeal.Value

end
-- ==== Proof.KernelRun.lean ====
/-
  The kernel's result.

  Both accumulator cells are written back once, after the last grid point, and each result array is a single cell, so
  each array ends holding its cell after the last point.  After point 255 the cells hold the sums of the tile
  contributions of all 256 points, which are the sums over all pairs (the grid visits every pair once).  After the
  region the host re-lays each [1,1] array as a scalar and divides the numerator by the denominator.
-/
import proofs.«115635_j22136261443962_1_alg».proof.Proof.Gen.KernelIdeal.Frame
import proofs.«115635_j22136261443962_1_alg».proof.Proof.Spec
import proofs.«115635_j22136261443962_1_alg».proof.Proof.Accumulate
import Idealize.ShloMosaic.Lib.Pipeline.Value
import Idealize.ShloMosaic.Lib.StableHlo.Run
import Idealize.ShloMosaic.Lib.IdealHost
import Idealize.ShloMosaic.Lib.Tactic

noncomputable section

open Idealize.ShloMosaic Idealize.ShloMosaic.TcCoe Idealize.SL.Sem
open Idealize.ShloMosaic.Pipeline (Dat)

namespace Cert.KernelIdeal.Value

open Cert.KernelIdeal Cert.KernelIdeal.Gen Idealize.ShloMosaic.ValueIdx Cert.Auc

variable (m : (ℓ : Loc nD τ sig) → Buf (Elt Ideal) ℓ) (ρ : Dev nD → PrngReg)

/-- The last grid point. -/
def lastPt : Fin cfg0.N := ⟨255, by rw [show cfg0.N = 256 from N_0]; decide⟩

theorem lastPt_val : lastPt.val = 255 := rfl

/-- The one write-back of window 4, after the last point, writes the cell: block (0, 0) of a [1,1] array is the array. -/
theorem flushed_num (c : Dev nD) (G : Buf (Elt Ideal) ((c : Thread nD τ).loc main_v10_0))
    (hG : (outsAt0 m c lastPt.val lastPt.isLt).1 = G) (t : Fin cfg0.N) (hf : (cfg0.win 4).flush t = true) :
    (dats m 0 c).flushed 4 t = ((cfg0.win 4).blk t).view.read (Elt Ideal) G := by
  have hN : cfg0.N = 256 := N_0
  have h3 : t.val = lastPt.val := by have := (flush0_4 t).mp hf; have := t.isLt; rw [lastPt_val]; omega
  obtain rfl : t = lastPt := Fin.ext h3
  show (cfg0.win 4).cut (grid0.coords lastPt) ((dats m 0 c).after 4 lastPt) = _
  rw [after0_4, hG]
  have hz' : (fun a => win0_4.index lastPt a * main_v10_0.ty.shape.size a) = fun _ => 0 :=
    funext fun a => by fin_cases a <;> decide +kernel
  exact (Memref.read_access_unit_zero (Elt Ideal) main_v10_0 hz' (fun a => by rw [congrFun hz' a]; simp) G).symm

/-- So that array ends holding the cell after the last point. -/
theorem final_num (c : Dev nD) (G : Buf (Elt Ideal) ((c : Thread nD τ).loc main_v10_0))
    (hG : (outsAt0 m c lastPt.val lastPt.isLt).1 = G) : (dats m 0 c).arrAt 4 cfg0.N = G :=
  (dats m 0 c).arrAt_eq_of_cover 4 G (flushed_num m c G hG) fun i =>
    ⟨lastPt, (flush0_4 lastPt).mpr rfl, by
      show i ∈ ((View.whole main_v10_0).slice (win0_4.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index lastPt 0 * win0_4.size 0 ≤ (i 0 : Nat) ∧ (i 0 : Nat) < win0_4.index lastPt 0 * win0_4.size 0 + win0_4.xsize (grid0.coords lastPt) 0
        rw [show win0_4.index lastPt 0 * win0_4.size 0 = 0 from by decide +kernel, show win0_4.xsize (grid0.coords lastPt) 0 = 1 from by decide +kernel]; omega
      | ⟨1, _⟩ =>
        show win0_4.index lastPt 1 * win0_4.size 1 ≤ (i 1 : Nat) ∧ (i 1 : Nat) < win0_4.index lastPt 1 * win0_4.size 1 + win0_4.xsize (grid0.coords lastPt) 1
        rw [show win0_4.index lastPt 1 * win0_4.size 1 = 0 from by decide +kernel, show win0_4.xsize (grid0.coords lastPt) 1 = 1 from by decide +kernel]; omega⟩

/-- The one write-back of window 5, after the last point, writes the cell: block (0, 0) of a [1,1] array is the array. -/
theorem flushed_den (c : Dev nD) (G : Buf (Elt Ideal) ((c : Thread nD τ).loc main_v10_1))
    (hG : (outsAt0 m c lastPt.val lastPt.isLt).2 = G) (t : Fin cfg0.N) (hf : (cfg0.win 5).flush t = true) :
    (dats m 0 c).flushed 5 t = ((cfg0.win 5).blk t).view.read (Elt Ideal) G := by
  have hN : cfg0.N = 256 := N_0
  have h3 : t.val = lastPt.val := by have := (flush0_5 t).mp hf; have := t.isLt; rw [lastPt_val]; omega
  obtain rfl : t = lastPt := Fin.ext h3
  show (cfg0.win 5).cut (grid0.coords lastPt) ((dats m 0 c).after 5 lastPt) = _
  rw [after0_5, hG]
  have hz' : (fun a => win0_5.index lastPt a * main_v10_1.ty.shape.size a) = fun _ => 0 :=
    funext fun a => by fin_cases a <;> decide +kernel
  exact (Memref.read_access_unit_zero (Elt Ideal) main_v10_1 hz' (fun a => by rw [congrFun hz' a]; simp) G).symm

/-- So that array ends holding the cell after the last point. -/
theorem final_den (c : Dev nD) (G : Buf (Elt Ideal) ((c : Thread nD τ).loc main_v10_1))
    (hG : (outsAt0 m c lastPt.val lastPt.isLt).2 = G) : (dats m 0 c).arrAt 5 cfg0.N = G :=
  (dats m 0 c).arrAt_eq_of_cover 5 G (flushed_den m c G hG) fun i =>
    ⟨lastPt, (flush0_5 lastPt).mpr rfl, by
      show i ∈ ((View.whole main_v10_1).slice (win0_5.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index lastPt 0 * win0_5.size 0 ≤ (i 0 : Nat) ∧ (i 0 : Nat) < win0_5.index lastPt 0 * win0_5.size 0 + win0_5.xsize (grid0.coords lastPt) 0
        rw [show win0_5.index lastPt 0 * win0_5.size 0 = 0 from by decide +kernel, show win0_5.xsize (grid0.coords lastPt) 0 = 1 from by decide +kernel]; omega
      | ⟨1, _⟩ =>
        show win0_5.index lastPt 1 * win0_5.size 1 ≤ (i 1 : Nat) ∧ (i 1 : Nat) < win0_5.index lastPt 1 * win0_5.size 1 + win0_5.xsize (grid0.coords lastPt) 1
        rw [show win0_5.index lastPt 1 * win0_5.size 1 = 0 from by decide +kernel, show win0_5.xsize (grid0.coords lastPt) 1 = 1 from by decide +kernel]; omega⟩

/-- A [1,1] cell re-laid as a scalar reads the cell's one entry. -/
theorem scalar_of_cell (X : S1x1.Idx → EReal) (y : S_.Idx) :
    shapeCast S_ X shapeCasts_S1x1_S_ y = X (ix2 (0 : Fin 1) (0 : Fin 1)) :=
  shapeCast_apply X shapeCasts_S1x1_S_ y (ix2 (0 : Fin 1) (0 : Fin 1)) (by
    rw [Shape.rowMajor_val_two]
    show 0 * 1 + 0 = (Shape.rowMajorPi S_.size y).val
    rw [Shape.rowMajorPi_zero])

/-- After the region the host re-lays each of the two result arrays as a scalar and divides the first by the second. -/
theorem tail_result (c : Dev nD) (Gn : Buf (Elt Ideal) ((c : Thread nD τ).loc main_v10_0))
    (Gd : Buf (Elt Ideal) ((c : Thread nD τ).loc main_v10_1))
    (hn : (dats m 0 c).arrAt 4 cfg0.N = Gn) (hd : (dats m 0 c).arrAt 5 cfg0.N = Gd) :
    Pipeline.afterTail₀ cfgs (dats m) 0 (V0 m) [hostOps1] c main_v13
      = Host.divf (F := Ideal) (φ := .f32) (shapeCast S_ (Gn : S1x1.Idx → Ideal .f32) shapeCasts_S1x1_S_)
          (shapeCast S_ (Gd : S1x1.Idx → Ideal .f32) shapeCasts_S1x1_S_) := by
  unfold Pipeline.afterTail₀
  show StableHlo.after hostOps1 _ (Proc.devRef .tc main_v13) = _
  after_results
  have e4 : Pipeline.withArrays (cfgs 0).spec c (V0 m c) (fun w => (dats m 0 c).arrAt w (cfgs 0).N)
      (Proc.devRef .tc main_v10_0) = Gn :=
    (Pipeline.withArrays_arr spec0 launch0.win.arr_inj c _ _ 4).trans hn
  have e5 : Pipeline.withArrays (cfgs 0).spec c (V0 m c) (fun w => (dats m 0 c).arrAt w (cfgs 0).N)
      (Proc.devRef .tc main_v10_1) = Gd :=
    (Pipeline.withArrays_arr spec0 launch0.win.arr_inj c _ _ 5).trans hd
  rw [e4, e5]
  rfl

/-- The kernel's result as a function of its arguments: the sum of the pair terms over the sum of the pair weights. -/
def loss (c : Dev nD) : S_.Idx → EReal :=
  fun _ => Ideal.div (numerator (scores m c) (pos m c) (neg m c)) (denominator (pos m c) (neg m c))

/-- After the last point the cells hold the sums over all 256 tiles, which are the sums over all pairs. -/
theorem cells_total (c : Dev nD) :
    (outsAt0 m c lastPt.val lastPt.isLt).1 (ix2 0 0) = numerator (scores m c) (pos m c) (neg m c)
    ∧ (outsAt0 m c lastPt.val lastPt.isLt).2 (ix2 0 0) = denominator (pos m c) (neg m c) := by
  obtain ⟨h1, h2⟩ := running m c lastPt.val lastPt.isLt
  exact ⟨h1.trans (grid_total (term (scores m c) (pos m c) (neg m c))),
    h2.trans (grid_total (weight (pos m c) (neg m c)))⟩

/-- The value the program leaves in its result. -/
theorem result_eq (c : Dev nD) : Pipeline.afterTail₀ cfgs (dats m) 0 (V0 m) [hostOps1] c main_v13 = loss m c := by
  rw [tail_result m c _ _ (final_num m c _ rfl) (final_den m c _ rfl)]
  funext y
  rw [hostDivf_apply, scalar_of_cell, scalar_of_cell, (cells_total m c).1, (cells_total m c).2]
  rfl

/-- The run, read: the result at the loss of the arguments, the arguments unchanged. -/
theorem run : θ_run defs (onTc (τ := τ) (main (F := Ideal))) ⟨m, fun _ => 0, ρ⟩ fun r => ∀ c : Dev nD,
      r.2.mem ((c : Thread nD τ).loc main_v13) = loss m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v13 (Pipeline.mem_restRefs_of main_v13 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Value

end
-- ==== Proof.RefValue.lean ====
/-
  The reference, read as the specification.

  The reference spreads the scores and the two label masks over all 16384 x 16384 pairs: at (i, j) the difference
  x_i - x_j, negated twice before the exponential, gives 1 / (1 + exp(-(-(x_i - x_j)))) = sigmoid(-(x_i - x_j)), and the
  pair mask is pos_i * neg_j.  It sums the weighted sigmoids over every pair from zero, sums the pair masks over every pair
  from zero, and divides: the numerator of the pair terms over the denominator of the pair weights.
-/
import proofs.«115635_j22136261443962_1_alg».proof.Proof.Gen.ReferenceIdeal.Read
import proofs.«115635_j22136261443962_1_alg».proof.Proof.Spec
import Idealize.ShloMosaic.Lib.ValueIdx
import Idealize.ShloMosaic.Lib.IdealHost
import Idealize.ShloMosaic.PureOps.Ideal.Laws

noncomputable section

open Idealize.ShloMosaic

namespace Cert.ReferenceIdeal.RefValue

open Cert.ReferenceIdeal Cert.ReferenceIdeal.Gen Cert.ReferenceIdeal.Read Idealize.ShloMosaic.ValueIdx Cert.Auc

/-- The scores, and the two label masks the reference computes (label = 1, label = 0, as floats), entry by entry. -/
def scores (x0 : (⟨S16384, .f32⟩ : BufTy).Contents (Elt Ideal)) : Fin 16384 → EReal := fun i => x0 (ix1 i)
def pos (x1 : (⟨S16384, .i32⟩ : BufTy).Contents (Elt Ideal)) : Fin 16384 → EReal := fun i => val_main_v2 (F := Ideal) x1 (ix1 i)
def neg (x1 : (⟨S16384, .i32⟩ : BufTy).Contents (Elt Ideal)) : Fin 16384 → EReal := fun i => val_main_v5 (F := Ideal) x1 (ix1 i)

theorem rowIdx6 (i j : Fin 16384) : idx_main_v6 (idx_main_v8 (ix2 i j)) = ix1 i :=
  funext fun a => Fin.ext (by match a with | ⟨0, _⟩ => rfl)
theorem colIdx7 (i j : Fin 16384) : idx_main_v7 (idx_main_v9 (ix2 i j)) = ix1 j :=
  funext fun a => Fin.ext (by match a with | ⟨0, _⟩ => rfl)
theorem rowIdx11 (i j : Fin 16384) : idx_main_v11 (idx_main_v13 (ix2 i j)) = ix1 i :=
  funext fun a => Fin.ext (by match a with | ⟨0, _⟩ => rfl)
theorem colIdx12 (i j : Fin 16384) : idx_main_v12 (idx_main_v14 (ix2 i j)) = ix1 j :=
  funext fun a => Fin.ext (by match a with | ⟨0, _⟩ => rfl)

/-- The reference's pair mask at (i, j) is the pair weight. -/
theorem weight_apply (x1 : (⟨S16384, .i32⟩ : BufTy).Contents (Elt Ideal)) (i j : Fin 16384) :
    val_main_v15 (F := Ideal) x1 (ix2 i j) = weight (pos x1) (neg x1) i j := by
  rw [val_main_v15_apply, val_main_v13_apply, val_main_v11_apply, val_main_v14_apply, val_main_v12_apply, rowIdx11, colIdx12]
  rfl

/-- The reference's weighted sigmoid at (i, j) is the pair term: its sigmoid is spelt 1 / (1 + exp(-(-(x_i - x_j)))). -/
theorem term_apply (x0 : (⟨S16384, .f32⟩ : BufTy).Contents (Elt Ideal)) (x1 : (⟨S16384, .i32⟩ : BufTy).Contents (Elt Ideal))
    (i j : Fin 16384) :
    val_main_v23 (F := Ideal) x0 x1 (ix2 i j) = term (scores x0) (pos x1) (neg x1) i j := by
  rw [val_main_v23_apply, weight_apply, val_main_v22_apply, val_main_v21_apply, val_main_cst_1_apply, val_main_v20_apply,
    val_main_v19_apply, val_main_cst_apply, val_main_v18_apply, val_main_v17_apply, val_main_v16_apply, val_main_v10_apply,
    val_main_v8_apply, val_main_v6_apply, val_main_v9_apply, val_main_v7_apply, rowIdx6, colIdx7]
  simp only [Ideal.mulf_def, Ideal.hostDivf_def, Ideal.addf_def, Ideal.hostUnary_exp_def, Ideal.hostNegf_def, Ideal.negf_def,
    Ideal.subf_def, Ideal.ofBits_def, Ideal.ofBits_one_f32]
  rfl

/-- The reference's result: the sum of the pair terms over the sum of the pair weights. -/
theorem result_eq (x0 : (⟨S16384, .f32⟩ : BufTy).Contents (Elt Ideal)) (x1 : (⟨S16384, .i32⟩ : BufTy).Contents (Elt Ideal)) :
    val_main_v26 (F := Ideal) x0 x1
      = fun _ => Ideal.div (numerator (scores x0) (pos x1) (neg x1)) (denominator (pos x1) (neg x1)) := by
  funext y
  rw [val_main_v26_apply, val_main_v24_apply, val_main_v25_apply, val_main_cst_2_apply, val_main_cst_3_apply]
  simp only [Ideal.hostDivf_def, Ideal.ofBits_def, Ideal.ofBits_zero_f32, zero_add]
  rw [sum_idx2, sum_idx2]
  unfold numerator denominator
  simp only [term_apply, weight_apply]

end Cert.ReferenceIdeal.RefValue

end
-- ==== Proof.lean ====
/-
  The pairwise-sigmoid (AUC surrogate) loss: the tiled accumulator kernel against the all-pairs reference.

  Both programs compute, on the extended reals, the sum over all pairs (i, j) of sigmoid(-(x_i - x_j)) * (pos_i * neg_j)
  divided by the sum over all pairs of pos_i * neg_j.  The reference spreads everything over the 16384 x 16384 pairs and
  sums once; the kernel walks a 16 x 16 grid of 1024 x 1024 tiles, adding each tile's two sums into two cells it zeroes
  at the first point, and the host divides the cells at the end.  The kernel's sigmoid is the single logistic operation at
  0 - (x_i - x_j); the reference's is 1 / (1 + exp(-(-(x_i - x_j)))): one function.  The two orders of summation agree
  because addition on the extended reals is commutative and associative, so the inputs' finiteness is never used.
  The ideal pass rewrote nothing, so the idealization claim is trivial; the three frames are the generated ones.
-/
import proofs.«115635_j22136261443962_1_alg».proof.Defs
import proofs.«115635_j22136261443962_1_alg».proof.Proof.Gen.Kernel
import proofs.«115635_j22136261443962_1_alg».proof.Proof.Gen.Kernel.Skeleton
import proofs.«115635_j22136261443962_1_alg».proof.Proof.Gen.Kernel.Launch
import proofs.«115635_j22136261443962_1_alg».proof.Proof.Gen.Kernel.Points
import proofs.«115635_j22136261443962_1_alg».proof.Proof.Gen.Kernel.Frame
import proofs.«115635_j22136261443962_1_alg».proof.Proof.Gen.KernelIdeal
import proofs.«115635_j22136261443962_1_alg».proof.Proof.Gen.KernelIdeal.Skeleton
import proofs.«115635_j22136261443962_1_alg».proof.Proof.Gen.KernelIdeal.Launch
import proofs.«115635_j22136261443962_1_alg».proof.Proof.Gen.KernelIdeal.Points
import proofs.«115635_j22136261443962_1_alg».proof.Proof.Gen.KernelIdeal.Frame
import proofs.«115635_j22136261443962_1_alg».proof.Proof.Gen.ReferenceIdeal
import proofs.«115635_j22136261443962_1_alg».proof.Proof.Gen.Pre_finite_inputs
import proofs.«115635_j22136261443962_1_alg».proof.Proof.Gen.ReferenceIdeal.Run
import proofs.«115635_j22136261443962_1_alg».proof.Proof.Gen.ReferenceIdeal.Read
import proofs.«115635_j22136261443962_1_alg».proof.Proof.KernelRun
import proofs.«115635_j22136261443962_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The scores and masks the two programs read are the same functions of arguments that agree. -/
theorem same_scores (x0 : (⟨Cert.ReferenceIdeal.S16384, .f32⟩ : BufTy).Contents (Elt Ideal))
    (m : (ℓ : Loc Cert.KernelIdeal.nD Cert.KernelIdeal.τ Cert.KernelIdeal.sig) → Buf (Elt Ideal) ℓ) (c : Dev Cert.KernelIdeal.nD)
    (h : x0 = m ((c.tc : Thread Cert.KernelIdeal.nD Cert.KernelIdeal.τ).loc Cert.KernelIdeal.main_arg0)) :
    Cert.ReferenceIdeal.RefValue.scores x0 = Cert.KernelIdeal.Value.scores m c := by subst h; rfl
theorem same_pos (x1 : (⟨Cert.ReferenceIdeal.S16384, .i32⟩ : BufTy).Contents (Elt Ideal))
    (m : (ℓ : Loc Cert.KernelIdeal.nD Cert.KernelIdeal.τ Cert.KernelIdeal.sig) → Buf (Elt Ideal) ℓ) (c : Dev Cert.KernelIdeal.nD)
    (h : x1 = m ((c.tc : Thread Cert.KernelIdeal.nD Cert.KernelIdeal.τ).loc Cert.KernelIdeal.main_arg1)) :
    Cert.ReferenceIdeal.RefValue.pos x1 = Cert.KernelIdeal.Value.pos m c := by subst h; rfl
theorem same_neg (x1 : (⟨Cert.ReferenceIdeal.S16384, .i32⟩ : BufTy).Contents (Elt Ideal))
    (m : (ℓ : Loc Cert.KernelIdeal.nD Cert.KernelIdeal.τ Cert.KernelIdeal.sig) → Buf (Elt Ideal) ℓ) (c : Dev Cert.KernelIdeal.nD)
    (h : x1 = m ((c.tc : Thread Cert.KernelIdeal.nD Cert.KernelIdeal.τ).loc Cert.KernelIdeal.main_arg1)) :
    Cert.ReferenceIdeal.RefValue.neg x1 = Cert.KernelIdeal.Value.neg m c := by subst h; rfl

/-- At the ideal instance the kernel's result ends at the loss of its arguments (the accumulated tile sums, divided) and
    the reference's at the same quotient of the all-pairs sums of arguments that agree. -/
theorem algebraic : Cert.algebraic_KernelIdeal_ReferenceIdeal := by
  intro m ρ m' ρ' _ hagree
  refine ⟨fun c => Cert.KernelIdeal.Value.loss m c, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq,
    same_scores _ m c (hagree c).1, same_pos _ m c (hagree c).2, same_neg _ m c (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
